-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x16 .f32) (main_arg4 : FVec F S16 .f32) (main_arg5 : FVec F S16x32 .f32) (main_arg6 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S_ : Shape := ⟨0, ![]⟩
abbrev S1600000x1 : Shape := ⟨2, ![1600000, 1]⟩
abbrev S1600000x128 : Shape := ⟨2, ![1600000, 128]⟩
abbrev S1x16 : Shape := ⟨2, ![1, 16]⟩
abbrev S100000x16 : Shape := ⟨2, ![100000, 16]⟩
abbrev S5000x128 : Shape := ⟨2, ![5000, 128]⟩
abbrev S5000x16 : Shape := ⟨2, ![5000, 16]⟩
abbrev S1600000x16 : Shape := ⟨2, ![1600000, 16]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 37
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S1x16, .f32⟩
  | .hbm, ⟨21, _⟩ => ⟨S100000x16, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x16, .f32⟩
  | .hbm, ⟨31, _⟩ => ⟨S_, .f32⟩
  | .hbm, ⟨32, _⟩ => ⟨S100000x16, .f32⟩
  | .hbm, ⟨33, _⟩ => ⟨S1600000x1, .i32⟩
  | .hbm, ⟨34, _⟩ => ⟨S100000x16, .f32⟩
  | .hbm, ⟨35, _⟩ => ⟨S1x32, .f32⟩
  | .hbm, ⟨36, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S1x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S16x32, .f32⟩
  | .local _ .vmem, ⟨9, _⟩ => ⟨S1x32, .f32⟩
  | .local _ .vmem, ⟨10, _⟩ => ⟨S5000x32, .f32⟩
  | .local _ .vmem, ⟨11, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S16_S1x16 : S16.ShapeCasts S1x16
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S32_S1x32 : S32.ShapeCasts S1x32
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x16_S5000x16_1_0_0_1_n_n_wf : DotDims.WF S5000x128 S128x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x32_S5000x32_1_0_0_1_n_n_wf : DotDims.WF S5000x16 S16x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x32.size a ≤ S16x32.size a
  hwx1_1 : ∀ i : grid1.Coords, EltTy.bits .f32 = 32 ∨ (Rect.block (s := S16x32) S16x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S_ : Shape := ⟨0, ![]⟩
abbrev S1600000x1 : Shape := ⟨2, ![1600000, 1]⟩
abbrev S1600000x128 : Shape := ⟨2, ![1600000, 128]⟩
abbrev S100000x16 : Shape := ⟨2, ![100000, 16]⟩
abbrev S1x16 : Shape := ⟨2, ![1, 16]⟩
abbrev S1600000x16 : Shape := ⟨2, ![1600000, 16]⟩
abbrev S100000x32 : Shape := ⟨2, ![100000, 32]⟩
abbrev S1x32 : Shape := ⟨2, ![1, 32]⟩

abbrev nBuf : Space → Nat
  | .hbm => 44
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x16, .f32⟩
  | .hbm, ⟨21, _⟩ => ⟨S1x16, .f32⟩
  | .hbm, ⟨22, _⟩ => ⟨S100000x16, .f32⟩
  | .hbm, ⟨23, _⟩ => ⟨S100000x16, .f32⟩
  | .hbm, ⟨24, _⟩ => ⟨S_, .f32⟩
  | .hbm, ⟨25, _⟩ => ⟨S100000x16, .f32⟩
  | .hbm, ⟨26, _⟩ => ⟨S100000x16, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x16, .f32⟩
  | .hbm, ⟨36, _⟩ => ⟨S_, .f32⟩
  | .hbm, ⟨37, _⟩ => ⟨S100000x16, .f32⟩
  | .hbm, ⟨38, _⟩ => ⟨S1600000x1, .i32⟩
  | .hbm, ⟨39, _⟩ => ⟨S100000x16, .f32⟩
  | .hbm, ⟨40, _⟩ => ⟨S100000x32, .f32⟩
  | .hbm, ⟨41, _⟩ => ⟨S1x32, .f32⟩
  | .hbm, ⟨42, _⟩ => ⟨S100000x32, .f32⟩
  | .hbm, ⟨43, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«132665_j317827580689_2_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.Layer.lean ====
/-
  One layer of a graph network, as a function of whole arrays.

  A layer multiplies an [M, K] array of node rows by a [K, N] weight and adds one [1, N] bias row to every row;
  the first layer also clips at zero.  `clipped` and `affine` state the two layers index by index: the entry at
  row r and column c is the sum over k of X(r, k) · W(k, c), plus the bias row at c, and for the first layer the
  maximum of that with zero.  Both the whole-array spelling (a `dot_general`, the bias broadcast along the rows,
  a maximum with a broadcast zero) and the spelling over one block of rows (a `matmul` into a zero accumulator of
  operands whose change of float format is the identity on the extended reals, the bias row repeated, a maximum
  with a splat zero) are these functions; and a block of rows of the layer is the layer of that block of rows,
  because an entry depends on its own row of X only.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«132665_j317827580689_2_alg».proof.Proof.LibRowOps
import proofs.«132665_j317827580689_2_alg».proof.Proof.LibDense

noncomputable section

namespace Cert.Layer

open Idealize.ShloMosaic Idealize.ShloMosaic.ValueIdx Cert.RowOps Cert.Dense

variable {M K N : Nat}

/-- Row r of X against column c of W, plus the bias row at c. -/
def affineAt (X : (⟨2, ![M, K]⟩ : Shape).Idx → EReal) (W : (⟨2, ![K, N]⟩ : Shape).Idx → EReal)
    (b : (⟨2, ![1, N]⟩ : Shape).Idx → EReal) (r : Fin M) (c : Fin N) : EReal :=
  (∑ k : Fin K, X (ix2 r k) * W (ix2 k c)) + b (ix2 (0 : Fin 1) c)

/-- The second layer: X · W plus the bias row, index by index. -/
def affine (X : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun j => affineAt X W b (j 0) (j 1)

/-- The first layer: X · W plus the bias row, clipped at zero, index by index. -/
def clipped (X : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun j => max (affineAt X W b (j 0) (j 1)) z

theorem affine_ix2 (X : (⟨2, ![M, K]⟩ : Shape).Idx → EReal) (W : (⟨2, ![K, N]⟩ : Shape).Idx → EReal)
    (b : (⟨2, ![1, N]⟩ : Shape).Idx → EReal) (r : Fin M) (c : Fin N) :
    affine X W b (ix2 r c) = affineAt X W b r c := rfl

theorem clipped_ix2 (X : (⟨2, ![M, K]⟩ : Shape).Idx → EReal) (W : (⟨2, ![K, N]⟩ : Shape).Idx → EReal)
    (b : (⟨2, ![1, N]⟩ : Shape).Idx → EReal) (r : Fin M) (c : Fin N) :
    clipped X W b (ix2 r c) = max (affineAt X W b r c) z := rfl

/-- An entry of a layer depends on its own row of X only: if row r' of X' is row r of X, the entries agree. -/
theorem affineAt_congr_row {M' : Nat} (X : (⟨2, ![M, K]⟩ : Shape).Idx → EReal) (X' : (⟨2, ![M', K]⟩ : Shape).Idx → EReal)
    (W : (⟨2, ![K, N]⟩ : Shape).Idx → EReal) (b : (⟨2, ![1, N]⟩ : Shape).Idx → EReal) (r : Fin M) (r' : Fin M') (c : Fin N)
    (h : ∀ k : Fin K, X' (ix2 r' k) = X (ix2 r k)) : affineAt X' W b r' c = affineAt X W b r c := by
  unfold affineAt
  exact congrArg (· + b (ix2 (0 : Fin 1) c)) (Finset.sum_congr rfl fun k _ => by rw [h k])

/-! ## The whole-array spelling -/

section Host

variable {d : DotDims ⟨2, ![M, K]⟩ ⟨2, ![K, N]⟩ ⟨2, ![M, N]⟩}

/-- A length-N vector viewed as one [1, N] row reads, at (0, c), the vector at c. -/
theorem row_apply (B : (⟨1, ![N]⟩ : Shape).Idx → EReal) (hs : (⟨1, ![N]⟩ : Shape).ShapeCasts ⟨2, ![1, N]⟩) (c : Fin N) :
    shapeCast ⟨2, ![1, N]⟩ B hs (ix2 (0 : Fin 1) c) = B (ix1 c) :=
  shapeCast_apply B hs _ _ (by
    rw [Shape.rowMajor_val_one, Shape.rowMajor_val_two]
    show c.val = 0 * N + c.val
    omega)

/-- The product with the weight plus the bias broadcast along the rows is `affine` of the bias as a row. -/
theorem host_affine (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hs : (⟨1, ![N]⟩ : Shape).ShapeCasts ⟨2, ![1, N]⟩) :
    addf (Host.dotGeneral d none X W) (broadcastInDim ⟨2, ![M, N]⟩ ![0, 1] h2 (broadcastInDim ⟨2, ![1, N]⟩ ![1] h1 B))
      = affine X W (shapeCast ⟨2, ![1, N]⟩ B hs) := by
  funext j
  obtain ⟨r, c, rfl⟩ : ∃ (r : Fin M) (c : Fin N), j = ix2 r c := ⟨j 0, j 1, eq_ix2 j⟩
  rw [addf_apply, hostRowBias_apply, affine_ix2]
  unfold affineAt
  rw [row_apply]
  exact congrArg (· + B (ix1 c)) (hostDot_apply hd none .single X W r c)

/-- The same clipped at a broadcast zero is `clipped` of the bias as a row. -/
theorem host_clipped (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hs : (⟨1, ![N]⟩ : Shape).ShapeCasts ⟨2, ![1, N]⟩) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32))
      = clipped X W (shapeCast ⟨2, ![1, N]⟩ B hs) := by
  funext j
  obtain ⟨r, c, rfl⟩ : ∃ (r : Fin M) (c : Fin N), j = ix2 r c := ⟨j 0, j 1, eq_ix2 j⟩
  rw [hostEncode_apply hd, clipped_ix2]
  unfold affineAt
  rw [row_apply]

end Host

/-! ## The spelling over one block of rows -/

section Block

variable {d : DotDims ⟨2, ![M, K]⟩ ⟨2, ![K, N]⟩ ⟨2, ![M, N]⟩}

/-- A block's product into a zero accumulator plus the bias row repeated is `affine` of the block. -/
theorem block_affine (hd : IsPlain d) (x : FVec Ideal ⟨2, ![M, K]⟩ .f32) (w : FVec Ideal ⟨2, ![K, N]⟩ .f32)
    (b : FVec Ideal ⟨2, ![1, N]⟩ .f32)
    (hx : (⟨2, ![M, K]⟩ : Shape).ShapeCasts ⟨2, ![M, K]⟩) (hb : (⟨2, ![1, N]⟩ : Shape).ShapeCasts ⟨2, ![1, N]⟩)
    (hbb : (⟨2, ![1, N]⟩ : Shape).Broadcasts ⟨2, ![M, N]⟩) (hlt : FTy.bits .bf16 < FTy.bits .f32) :
    addf (matmul d none (truncf .bf16 (shapeCast ⟨2, ![M, K]⟩ x hx) hlt) (truncf .bf16 w hlt)
        (constant ⟨2, ![M, N]⟩ .f32 0x00000000#32))
        (broadcastTo ⟨2, ![M, N]⟩ (shapeCast ⟨2, ![1, N]⟩ b hb) hbb)
      = affine x w b := by
  funext j
  obtain ⟨r, c, rfl⟩ : ∃ (r : Fin M) (c : Fin N), j = ix2 r c := ⟨j 0, j 1, eq_ix2 j⟩
  rw [addf_apply, broadcastTo_1b_ab_apply, shapeCast_self, shapeCast_self, affine_ix2]
  unfold affineAt
  exact congrArg (· + b (ix2 (0 : Fin 1) c)) (matmul_zero_apply hd none _ _ r c)

/-- The same clipped at a splat zero is `clipped` of the block. -/
theorem block_clipped (hd : IsPlain d) (x : FVec Ideal ⟨2, ![M, K]⟩ .f32) (w : FVec Ideal ⟨2, ![K, N]⟩ .f32)
    (b : FVec Ideal ⟨2, ![1, N]⟩ .f32)
    (hx : (⟨2, ![M, K]⟩ : Shape).ShapeCasts ⟨2, ![M, K]⟩) (hb : (⟨2, ![1, N]⟩ : Shape).ShapeCasts ⟨2, ![1, N]⟩)
    (hbb : (⟨2, ![1, N]⟩ : Shape).Broadcasts ⟨2, ![M, N]⟩) (hlt : FTy.bits .bf16 < FTy.bits .f32) :
    maximumf (addf (matmul d none (truncf .bf16 (shapeCast ⟨2, ![M, K]⟩ x hx) hlt) (truncf .bf16 w hlt)
        (constant ⟨2, ![M, N]⟩ .f32 0x00000000#32))
        (broadcastTo ⟨2, ![M, N]⟩ (shapeCast ⟨2, ![1, N]⟩ b hb) hbb))
        (broadcast ⟨2, ![M, N]⟩ (Scalar.ofBits (F := Ideal) .f32 0x00000000#32))
      = clipped x w b := by
  funext j
  obtain ⟨r, c, rfl⟩ : ∃ (r : Fin M) (c : Fin N), j = ix2 r c := ⟨j 0, j 1, eq_ix2 j⟩
  rw [maximumf_apply, block_affine hd x w b hx hb hbb hlt, broadcast_apply, clipped_ix2, affine_ix2]
  rfl

end Block

end Cert.Layer

end
-- ==== Proof.Blocks.lean ====
/-
  What each region leaves in its output array.

  A region runs its body once per block of 5000 node rows.  At a block the body loads that block of the
  aggregated rows, the whole weight and the whole bias row, and stores one layer of them (`clipped` in the first
  region, `affine` in the second).  An entry of a layer depends on its own row of the input only, so what the body
  stores at a block is that block of the layer of the WHOLE arrays; the twenty blocks tile the 100000 rows, so after
  the region the output array holds the layer of the arrays the region found.
-/
import proofs.«132665_j317827580689_2_alg».proof.Proof.Gen.KernelIdeal.Frame
import proofs.«132665_j317827580689_2_alg».proof.Proof.Layer
import Idealize.ShloMosaic.Lib.Pipeline.Value

set_option maxRecDepth 16384

noncomputable section

namespace Cert.KernelIdeal.Blocks

open Cert.KernelIdeal Cert.KernelIdeal.Gen Cert.Layer Cert.RowOps
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

theorem plain0 : IsPlain dot_S5000x128_S128x16_S5000x16_1_0_0_1_n_n := ⟨rfl, rfl, rfl, rfl, rfl, rfl⟩

/-- The body's stored value is the layer of its three loaded blocks. -/
theorem pay0_eq (x0 : Vec Ideal S5000x128 .f32) (x1 : Vec Ideal S128x16 .f32) (x2 : Vec Ideal S1x16 .f32) :
    k0_pay1 (F := Ideal) x0 x1 x2 = clipped (M := 5000) (K := 128) (N := 16) x0 x1 x2 :=
  block_clipped plain0 x0 x1 x2 _ _ _ _

/-- The block indices over the grid: at point t the row windows are at block t, the weight and the bias at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows' block at point t is rows 5000 t … 5000 t + 4999 of the array. -/
theorem rows0_apply (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_v9 : S100000x128.Idx → EReal) i := by
  obtain ⟨e0, e1, -⟩ := idx0 t
  unfold iblk0
  rw [View.read_apply]
  show V c main_v9 _ = V c main_v9 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weight's block at every point is the whole weight. -/
theorem weight0_apply (c : Dev nD) (t : Fin cfg0.N) (y : S128x16.Idx) :
    (iblk0 V c 1 t : Vec Ideal S128x16 .f32) y = (V c main_arg3 : S128x16.Idx → EReal) y := by
  obtain ⟨-, -, e2, e3, -⟩ := idx0 t
  unfold iblk0
  rw [View.read_apply]
  show V c main_arg3 _ = V c main_arg3 _
  congr 1
  funext a
  apply Fin.ext
  match a with
  | ⟨0, _⟩ => show win0_1.index t 0 * 128 + 1 * (y 0).val = (y 0).val; rw [e2]; omega
  | ⟨1, _⟩ => show win0_1.index t 1 * 16 + 1 * (y 1).val = (y 1).val; rw [e3]; omega

/-- The bias row's block at every point is the whole row. -/
theorem bias0_apply (c : Dev nD) (t : Fin cfg0.N) (y : S1x16.Idx) :
    (iblk0 V c 2 t : Vec Ideal S1x16 .f32) y = (V c main_v10 : S1x16.Idx → EReal) y := by
  obtain ⟨-, -, -, -, e4, e5, -⟩ := idx0 t
  unfold iblk0
  rw [View.read_apply]
  show V c main_v10 _ = V c main_v10 _
  congr 1
  funext a
  apply Fin.ext
  match a with
  | ⟨0, _⟩ => show win0_2.index t 0 * 1 + 1 * (y 0).val = (y 0).val; rw [e4]; omega
  | ⟨1, _⟩ => show win0_2.index t 1 * 16 + 1 * (y 1).val = (y 1).val; rw [e5]; omega

/-- An entry of the layer of the blocks at point t is the entry of the layer of the whole arrays 5000 t rows below. -/
theorem entry0 (c : Dev nD) (t : Fin cfg0.N) (r : Fin 5000) (R : Fin 100000) (q : Fin 16)
    (h : R.val = t.val * 5000 + r.val) :
    affineAt (M := 5000) (K := 128) (N := 16) (iblk0 V c 0 t) (iblk0 V c 1 t) (iblk0 V c 2 t) r q
      = affineAt (M := 100000) (K := 128) (N := 16) (V c main_v9) (V c main_arg3) (V c main_v10) R q := by
  unfold affineAt
  rw [bias0_apply V c t (ix2 (0 : Fin 1) q)]
  refine congrArg (· + (V c main_v10 : S1x16.Idx → EReal) (ix2 (0 : Fin 1) q)) (Finset.sum_congr rfl fun k _ => ?_)
  rw [rows0_apply V c t (ix2 r k) (ix2 R k) h rfl, weight0_apply V c t (ix2 k q)]

/-- The layer of the blocks at point t, at an index, is the layer of the whole arrays at the index 5000 t rows below. -/
theorem layer0_block (c : Dev nD) (t : Fin cfg0.N) (j : S5000x16.Idx) (i : S100000x16.Idx)
    (hrow : (i 0).val = t.val * 5000 + (j 0).val) (hcol : (i 1).val = (j 1).val) :
    clipped (M := 5000) (K := 128) (N := 16) (iblk0 V c 0 t) (iblk0 V c 1 t) (iblk0 V c 2 t) j
      = clipped (M := 100000) (K := 128) (N := 16) (V c main_v9) (V c main_arg3) (V c main_v10) i := by
  obtain ⟨r, q, rfl⟩ : ∃ (r : Fin 5000) (q : Fin 16), j = ix2 r q := ⟨j 0, j 1, eq_ix2 j⟩
  obtain ⟨R, Q, rfl⟩ : ∃ (R : Fin 100000) (Q : Fin 16), i = ix2 R Q := ⟨i 0, i 1, eq_ix2 i⟩
  obtain rfl : Q = q := Fin.ext hcol
  rw [clipped_ix2, clipped_ix2, entry0 V c t r R Q hrow]

/-- What point t writes back is block t of the layer of the arrays the region found. -/
theorem flushed0 (c : Dev nD) (t : Fin cfg0.N) :
    (dat0 V c).flushed 3 t = ((cfg0.win 3).blk t).view.read (Elt Ideal)
      (clipped (M := 100000) (K := 128) (N := 16) (V c main_v9) (V c main_arg3) (V c main_v10)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x16) hz, View.ld_unit_zero (S := S1x16) hz]
  rw [pay0_eq]
  obtain ⟨-, -, -, -, -, -, e6, e7⟩ := idx0 t
  funext j
  show clipped (M := 5000) (K := 128) (N := 16) (iblk0 V c 0 t) (iblk0 V c 1 t) (iblk0 V c 2 t) j
    = clipped (M := 100000) (K := 128) (N := 16) (V c main_v9) (V c main_arg3) (V c main_v10) (((cfg0.win 3).blk t).view.emb j)
  have hrow : ((((cfg0.win 3).blk t).view.emb j) 0).val = t.val * 5000 + (j 0).val := by
    show win0_3.index t 0 * 5000 + 1 * (j 0).val = _
    rw [e6]; omega
  have hcol : ((((cfg0.win 3).blk t).view.emb j) 1).val = (j 1).val := by
    show win0_3.index t 1 * 16 + 1 * (j 1).val = _
    rw [e7]; omega
  exact layer0_block V c t j _ hrow hcol

/-- An index of the output array is in point t's block iff its coordinates are in the block's ranges. -/
theorem mem_blk0 (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v11).slice (win0_3.rect t)).set ↔ _
  rw [View.set_slice_whole, Rect.mem_set_unit]
  exact Iff.rfl

/-- Row R of the output array is written back at point R / 5000. -/
theorem cover0 (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 20 := N_0
  have ht : (i 0).val / 5000 < cfg0.N := by rw [hN]; omega
  obtain ⟨-, -, -, -, -, -, e6, e7⟩ := idx0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ 1 * 16 ≤ (i 1).val ∧ (i 1).val < win0_3.index ⟨(i 0).val / 5000, ht⟩ 1 * 16 + 16
    rw [e7]; omega

/-- After the region its output array holds the layer of the arrays the region found. -/
theorem final0 (c : Dev nD) : (dat0 V c).arrAt 3 cfg0.N
    = clipped (M := 100000) (K := 128) (N := 16) (V c main_v9) (V c main_arg3) (V c main_v10) :=
  (dat0 V c).arrAt_eq_of_cover 3 _ (fun t _ => flushed0 V c t) cover0

/-! ## Region 1 -/

theorem plain1 : IsPlain dot_S5000x16_S16x32_S5000x32_1_0_0_1_n_n := ⟨rfl, rfl, rfl, rfl, rfl, rfl⟩

/-- The body's stored value is the layer of its three loaded blocks. -/
theorem pay1_eq (x0 : Vec Ideal S5000x16 .f32) (x1 : Vec Ideal S16x32 .f32) (x2 : Vec Ideal S1x32 .f32) :
    k1_pay1 (F := Ideal) x0 x1 x2 = affine (M := 5000) (K := 16) (N := 32) x0 x1 x2 :=
  block_affine plain1 x0 x1 x2 _ _ _ _

/-- The block indices over the grid: at point t the row windows are at block t, the weight and the bias at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The rows' block at point t is rows 5000 t … 5000 t + 4999 of the array. -/
theorem rows1_apply (c : Dev nD) (t : Fin cfg1.N) (y : S5000x16.Idx) (i : S100000x16.Idx)
    (h0 : (i 0).val = t.val * 5000 + (y 0).val) (h1 : (i 1).val = (y 1).val) :
    (iblk1 V c 0 t : Vec Ideal S5000x16 .f32) y = (V c main_v21 : S100000x16.Idx → EReal) i := by
  obtain ⟨e0, e1, -⟩ := idx1 t
  unfold iblk1
  rw [View.read_apply]
  show V c main_v21 _ = V c main_v21 _
  congr 1
  funext a
  apply Fin.ext
  match a with
  | ⟨0, _⟩ => show win1_0.index t 0 * 5000 + 1 * (y 0).val = (i 0).val; rw [e0, h0]; omega
  | ⟨1, _⟩ => show win1_0.index t 1 * 16 + 1 * (y 1).val = (i 1).val; rw [e1, h1]; omega

/-- The weight's block at every point is the whole weight. -/
theorem weight1_apply (c : Dev nD) (t : Fin cfg1.N) (y : S16x32.Idx) :
    (iblk1 V c 1 t : Vec Ideal S16x32 .f32) y = (V c main_arg5 : S16x32.Idx → EReal) y := by
  obtain ⟨-, -, e2, e3, -⟩ := idx1 t
  unfold iblk1
  rw [View.read_apply]
  show V c main_arg5 _ = V c main_arg5 _
  congr 1
  funext a
  apply Fin.ext
  match a with
  | ⟨0, _⟩ => show win1_1.index t 0 * 16 + 1 * (y 0).val = (y 0).val; rw [e2]; omega
  | ⟨1, _⟩ => show win1_1.index t 1 * 32 + 1 * (y 1).val = (y 1).val; rw [e3]; omega

/-- The bias row's block at every point is the whole row. -/
theorem bias1_apply (c : Dev nD) (t : Fin cfg1.N) (y : S1x32.Idx) :
    (iblk1 V c 2 t : Vec Ideal S1x32 .f32) y = (V c main_v22 : S1x32.Idx → EReal) y := by
  obtain ⟨-, -, -, -, e4, e5, -⟩ := idx1 t
  unfold iblk1
  rw [View.read_apply]
  show V c main_v22 _ = V c main_v22 _
  congr 1
  funext a
  apply Fin.ext
  match a with
  | ⟨0, _⟩ => show win1_2.index t 0 * 1 + 1 * (y 0).val = (y 0).val; rw [e4]; omega
  | ⟨1, _⟩ => show win1_2.index t 1 * 32 + 1 * (y 1).val = (y 1).val; rw [e5]; omega

/-- An entry of the layer of the blocks at point t is the entry of the layer of the whole arrays 5000 t rows below. -/
theorem entry1 (c : Dev nD) (t : Fin cfg1.N) (r : Fin 5000) (R : Fin 100000) (q : Fin 32)
    (h : R.val = t.val * 5000 + r.val) :
    affineAt (M := 5000) (K := 16) (N := 32) (iblk1 V c 0 t) (iblk1 V c 1 t) (iblk1 V c 2 t) r q
      = affineAt (M := 100000) (K := 16) (N := 32) (V c main_v21) (V c main_arg5) (V c main_v22) R q := by
  unfold affineAt
  rw [bias1_apply V c t (ix2 (0 : Fin 1) q)]
  refine congrArg (· + (V c main_v22 : S1x32.Idx → EReal) (ix2 (0 : Fin 1) q)) (Finset.sum_congr rfl fun k _ => ?_)
  rw [rows1_apply V c t (ix2 r k) (ix2 R k) h rfl, weight1_apply V c t (ix2 k q)]

/-- The layer of the blocks at point t, at an index, is the layer of the whole arrays at the index 5000 t rows below. -/
theorem layer1_block (c : Dev nD) (t : Fin cfg1.N) (j : S5000x32.Idx) (i : S100000x32.Idx)
    (hrow : (i 0).val = t.val * 5000 + (j 0).val) (hcol : (i 1).val = (j 1).val) :
    affine (M := 5000) (K := 16) (N := 32) (iblk1 V c 0 t) (iblk1 V c 1 t) (iblk1 V c 2 t) j
      = affine (M := 100000) (K := 16) (N := 32) (V c main_v21) (V c main_arg5) (V c main_v22) i := by
  obtain ⟨r, q, rfl⟩ : ∃ (r : Fin 5000) (q : Fin 32), j = ix2 r q := ⟨j 0, j 1, eq_ix2 j⟩
  obtain ⟨R, Q, rfl⟩ : ∃ (R : Fin 100000) (Q : Fin 32), i = ix2 R Q := ⟨i 0, i 1, eq_ix2 i⟩
  obtain rfl : Q = q := Fin.ext hcol
  rw [affine_ix2, affine_ix2, entry1 V c t r R Q hrow]

/-- What point t writes back is block t of the layer of the arrays the region found. -/
theorem flushed1 (c : Dev nD) (t : Fin cfg1.N) :
    (dat1 V c).flushed 3 t = ((cfg1.win 3).blk t).view.read (Elt Ideal)
      (affine (M := 100000) (K := 16) (N := 32) (V c main_v21) (V c main_arg5) (V c main_v22)) := by
  show (cfg1.win 3).cut (grid1.coords t) ((dat1 V c).after 3 t) = _
  rw [after1_3]
  unfold out1_3
  rw [View.canon_unit_zero hz]
  simp only [View.ld_unit_zero (S := S5000x16) hz, View.ld_unit_zero (S := S16x32) hz, View.ld_unit_zero (S := S1x32) hz]
  rw [pay1_eq]
  obtain ⟨-, -, -, -, -, -, e6, e7⟩ := idx1 t
  funext j
  show affine (M := 5000) (K := 16) (N := 32) (iblk1 V c 0 t) (iblk1 V c 1 t) (iblk1 V c 2 t) j
    = affine (M := 100000) (K := 16) (N := 32) (V c main_v21) (V c main_arg5) (V c main_v22) (((cfg1.win 3).blk t).view.emb j)
  have hrow : ((((cfg1.win 3).blk t).view.emb j) 0).val = t.val * 5000 + (j 0).val := by
    show win1_3.index t 0 * 5000 + 1 * (j 0).val = _
    rw [e6]; omega
  have hcol : ((((cfg1.win 3).blk t).view.emb j) 1).val = (j 1).val := by
    show win1_3.index t 1 * 32 + 1 * (j 1).val = _
    rw [e7]; omega
  exact layer1_block V c t j _ hrow hcol

/-- An index of the output array is in point t's block iff its coordinates are in the block's ranges. -/
theorem mem_blk1 (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v23).slice (win1_3.rect t)).set ↔ _
  rw [View.set_slice_whole, Rect.mem_set_unit]
  exact Iff.rfl

/-- Row R of the output array is written back at point R / 5000. -/
theorem cover1 (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  have ht : (i 0).val / 5000 < cfg1.N := by rw [hN]; omega
  obtain ⟨-, -, -, -, -, -, e6, e7⟩ := idx1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ 0 * 5000 ≤ (i 0).val ∧ (i 0).val < win1_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ 1 * 32 ≤ (i 1).val ∧ (i 1).val < win1_3.index ⟨(i 0).val / 5000, ht⟩ 1 * 32 + 32
    rw [e7]; omega

/-- After the region its output array holds the layer of the arrays the region found. -/
theorem final1 (c : Dev nD) : (dat1 V c).arrAt 3 cfg1.N
    = affine (M := 100000) (K := 16) (N := 32) (V c main_v21) (V c main_arg5) (V c main_v22) :=
  (dat1 V c).arrAt_eq_of_cover 3 _ (fun t _ => flushed1 V c t) cover1

end Cert.KernelIdeal.Blocks

end
-- ==== Proof.Network.lean ====
/-
  The two-layer network as one function of its arguments.

  Each layer first aggregates neighbours: every edge e carries row src(e) of the node array (a negative src(e)
  counted from the end) to node dst(e), and the rows arriving at a node are added up from zero — a gather of the
  rows at the edges' sources followed by a scatter that adds them at the edges' targets.  The aggregated rows then
  go through a layer: `clipped` (product with W1, plus b1, maximum with zero) in the first, `affine` (product with
  W2, plus b2) in the second.  The aggregation is the same composition of operations in both programs, so it is
  carried here as one function of the node array and the two index arrays and never opened; a program supplies its
  own dimension records and shape facts for it.
-/
import proofs.«132665_j317827580689_2_alg».proof.Proof.Layer

noncomputable section

namespace Cert.Network

open Idealize.ShloMosaic Cert.Layer

/-- Node rows of width D, one index per edge, the indices as a column, and one row of width D per edge. -/
abbrev Nodes (D : Nat) : Shape := ⟨2, ![100000, D]⟩
abbrev Edges : Shape := ⟨1, ![1600000]⟩
abbrev EdgeCol : Shape := ⟨2, ![1600000, 1]⟩
abbrev EdgeRows (D : Nat) : Shape := ⟨2, ![1600000, D]⟩
abbrev Scalar0 : Shape := ⟨0, ![]⟩

/-- Neighbour aggregation: rows gathered at the edges' sources (a negative source wrapped by the number of nodes),
    added at the edges' targets onto zero. -/
def aggregate {D : Nat} (gd : GatherDims (Nodes D) EdgeCol (EdgeRows D)) (sd : ScatterDims (Nodes D) EdgeCol (EdgeRows D))
    (hzero : Scalar0.BroadcastsInDim (Nodes D) (![] : Fin 0 → Fin 2))
    (hcol : Edges.BroadcastsInDim EdgeCol (![0] : Fin 1 → Fin 2))
    (hsplat : Scalar0.BroadcastsInDim Edges (![] : Fin 0 → Fin 1))
    (x : FVec Ideal (Nodes D) .f32) (src dst : IVec Edges 32) : FVec Ideal (Nodes D) .f32 :=
  Host.scatterAdd sd (broadcastInDim (Nodes D) ![] hzero (constant (F := Ideal) Scalar0 .f32 0x00000000#32))
    (broadcastInDim EdgeCol ![0] hcol dst)
    (Host.gather gd x (broadcastInDim EdgeCol ![0] hcol
      (select (cmpi .slt src (broadcastInDim Edges ![] hsplat (constantI Scalar0 32 0#32)))
        (addi src (broadcastInDim Edges ![] hsplat (constantI Scalar0 32 100000#32))) src)))

/-- The network: aggregate, clipped layer, aggregate, affine layer; the biases enter as [1, N] rows. -/
def network (gd1 : GatherDims (Nodes 128) EdgeCol (EdgeRows 128)) (sd1 : ScatterDims (Nodes 128) EdgeCol (EdgeRows 128))
    (gd2 : GatherDims (Nodes 16) EdgeCol (EdgeRows 16)) (sd2 : ScatterDims (Nodes 16) EdgeCol (EdgeRows 16))
    (hz1 : Scalar0.BroadcastsInDim (Nodes 128) (![] : Fin 0 → Fin 2)) (hz2 : Scalar0.BroadcastsInDim (Nodes 16) (![] : Fin 0 → Fin 2))
    (hcol : Edges.BroadcastsInDim EdgeCol (![0] : Fin 1 → Fin 2)) (hsplat : Scalar0.BroadcastsInDim Edges (![] : Fin 0 → Fin 1))
    (hr1 : (⟨1, ![16]⟩ : Shape).ShapeCasts ⟨2, ![1, 16]⟩) (hr2 : (⟨1, ![32]⟩ : Shape).ShapeCasts ⟨2, ![1, 32]⟩)
    (x : FVec Ideal (Nodes 128) .f32) (src dst : IVec Edges 32)
    (w1 : FVec Ideal ⟨2, ![128, 16]⟩ .f32) (b1 : FVec Ideal ⟨1, ![16]⟩ .f32)
    (w2 : FVec Ideal ⟨2, ![16, 32]⟩ .f32) (b2 : FVec Ideal ⟨1, ![32]⟩ .f32) : FVec Ideal (Nodes 32) .f32 :=
  affine (M := 100000) (K := 16) (N := 32)
    (aggregate gd2 sd2 hz2 hcol hsplat
      (clipped (M := 100000) (K := 128) (N := 16) (aggregate gd1 sd1 hz1 hcol hsplat x src dst) w1
        (shapeCast ⟨2, ![1, 16]⟩ b1 hr1)) src dst)
    w2 (shapeCast ⟨2, ![1, 32]⟩ b2 hr2)

end Cert.Network

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.KernelRun.lean ====
/-
  The idealized kernel's run, with its result named.

  The program is four segments: a stretch of host operations, the first layer's region, a second stretch, the
  second layer's region.  Every weakly fair execution from the launch memory terminates without a fault, and the
  buffers it ends with are the fold of the segments over the launch contents: in particular the result buffer
  ends at that fold read at the result, and each argument ends as launched.
-/
import proofs.«132665_j317827580689_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the segments' fold over the
    launch contents read at the result, and the arguments end as launched. -/
theorem run_fold : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.Line.lean ====
/-
  The idealized kernel's result is the network of its arguments.

  A region whose input arrays end as found and whose one output array ends at a layer of them rewrites the buffer
  contents exactly as one operation with that layer as its function would.  With both regions read this way the
  program is a single line of operations — a stretch of host operations, the clipped layer, a second stretch, the
  affine layer — and the result buffer after that line is the line's composed function of the launch contents of
  the arguments: the network.
-/
import proofs.«132665_j317827580689_2_alg».proof.Proof.Blocks
import proofs.«132665_j317827580689_2_alg».proof.Proof.Network
import proofs.«132665_j317827580689_2_alg».proof.Proof.LibRegionOp
import proofs.«132665_j317827580689_2_alg».proof.Proof.KernelRun
import Idealize.ShloMosaic.Lib.StableHlo.Run

set_option maxRecDepth 16384

noncomputable section

namespace Cert.KernelIdeal.Line

open Cert.KernelIdeal Cert.KernelIdeal.Gen Cert.KernelIdeal.Blocks Cert.Layer Cert.Network Cert.RegionOp
open Idealize.ShloMosaic Idealize.ShloMosaic.TcCoe Idealize.ShloMosaic.StableHlo Idealize.SL.Sem

variable (m : (ℓ : Loc nD τ sig) → Buf (Elt Ideal) ℓ) (ρ : Dev nD → PrngReg)

/-- The first region as one operation: the aggregated rows, the weight and the bias row to the clipped layer. -/
abbrev layer1 : HloOp τ sig (Elt Ideal) :=
  StableHlo.ternary main_v9 main_arg3 main_v10 main_v11
    ((fun X W b => clipped (M := 100000) (K := 128) (N := 16) X W b) : (⟨S100000x128, .f32⟩ : BufTy).Contents (Elt Ideal) → (⟨S128x16, .f32⟩ : BufTy).Contents (Elt Ideal) → (⟨S1x16, .f32⟩ : BufTy).Contents (Elt Ideal) → (⟨S100000x16, .f32⟩ : BufTy).Contents (Elt Ideal))

/-- The second region as one operation: the aggregated rows, the weight and the bias row to the affine layer. -/
abbrev layer2 : HloOp τ sig (Elt Ideal) :=
  StableHlo.ternary main_v21 main_arg5 main_v22 main_v23
    ((fun X W b => affine (M := 100000) (K := 16) (N := 32) X W b) : (⟨S100000x16, .f32⟩ : BufTy).Contents (Elt Ideal) → (⟨S16x32, .f32⟩ : BufTy).Contents (Elt Ideal) → (⟨S1x32, .f32⟩ : BufTy).Contents (Elt Ideal) → (⟨S100000x32, .f32⟩ : BufTy).Contents (Elt Ideal))

/-- The contents the first region leaves are those the clipped layer's operation leaves. -/
theorem after_region0 (c : Dev nD) : W2 m ρ c = (layer1).result (W1 m ρ c) := by
  unfold W2
  refine withArrays_eq_result spec0 launch0.win.arr_inj c (W1 m ρ c) _ layer1 3 rfl ?_ ?_
  · exact (final0 (V1 m ρ) c).trans (ternary_result main_v9 main_arg3 main_v10 main_v11 _ _ _ _ _ (W1 m ρ c)).symm
  · intro w hw
    match w, hw with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, h => exact absurd rfl h

/-- The contents the second region leaves are those the affine layer's operation leaves. -/
theorem after_region1 (c : Dev nD) : W4 m ρ c = (layer2).result (W3 m ρ c) := by
  unfold W4
  refine withArrays_eq_result spec1 launch1.win.arr_inj c (W3 m ρ c) _ layer2 3 rfl ?_ ?_
  · exact (final1 (V3 m ρ) c).trans (ternary_result main_v21 main_arg5 main_v22 main_v23 _ _ _ _ _ (W3 m ρ c)).symm
  · intro w hw
    match w, hw with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, h => exact absurd rfl h

/-- The network of the launch contents of the arguments on core c. -/
def value (c : Dev nD) : Buf (Elt Ideal) ((c.tc : Thread nD τ).loc main_v23) :=
  network gather_S100000x128_S1600000x1_S1600000x128_1_0_n_n_0_1_1128 scatter_S100000x128_S1600000x1_S1600000x128_1_0_0_1
      gather_S100000x16_S1600000x1_S1600000x16_1_0_n_n_0_1_116 scatter_S100000x16_S1600000x1_S1600000x16_1_0_0_1
      bcast_S_S100000x128 bcast_S_S100000x16 bcast_S1600000_S1600000x1_0 bcast_S_S1600000 shapeCasts_S16_S1x16 shapeCasts_S32_S1x32
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6))

set_option maxHeartbeats 2000000 in
/-- The fold of the four segments, read at the result, is the network of the arguments. -/
theorem fold_result (c : Dev nD) : W4 m ρ c (Proc.devRef .tc main_v23) = value m c := by
  rw [after_region1 m ρ c]
  show (layer2).result (StableHlo.after hostOps1 (W2 m ρ c)) (Proc.devRef .tc main_v23) = _
  rw [after_region0 m ρ c]
  show (layer2).result (StableHlo.after hostOps1 ((layer1).result (StableHlo.after hostOps0 (W0 m ρ c)))) (Proc.devRef .tc main_v23) = _
  dsimp only [layer1, layer2, hostOps0, hostOps1]
  after_results_simp
  rfl

/-- Every weakly fair execution terminates, nothing faulting, with the result at the network of the arguments and the
    arguments as launched. -/
theorem run : θ_run defs (onTc (τ := τ) (main (F := Ideal))) ⟨m, fun _ => 0, ρ⟩ (fun r => ∀ c : Dev nD,
      r.2.mem ((c.tc : Thread nD τ).loc main_v23) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (fold_result m ρ c), (h c).2⟩) (Cert.KernelIdeal.Hand.run_fold m ρ)

end Cert.KernelIdeal.Line

end
-- ==== Proof.RefTerm.lean ====
/-
  The reference's result is the network of its arguments.

  The reference computes each layer over whole arrays: a `dot_general` with the weight, the bias broadcast along
  the rows, and for the first layer a maximum with a broadcast zero.  Index by index these are `clipped` and
  `affine` of the aggregated rows, the weight and the bias viewed as one row; between them stands the same
  aggregation the network names.
-/
import proofs.«132665_j317827580689_2_alg».proof.Proof.Gen.ReferenceIdeal.Run
import proofs.«132665_j317827580689_2_alg».proof.Proof.Network

noncomputable section

namespace Cert.ReferenceIdeal.Hand

open Cert.ReferenceIdeal Cert.ReferenceIdeal.Facts₀ Cert.Layer Cert.Network Cert.RowOps
open Idealize.ShloMosaic

theorem plain1 : IsPlain dot_S100000x128_S128x16_S100000x16_1_0_0_1_n_n := ⟨rfl, rfl, rfl, rfl, rfl, rfl⟩
theorem plain2 : IsPlain dot_S100000x16_S16x32_S100000x32_1_0_0_1_n_n := ⟨rfl, rfl, rfl, rfl, rfl, rfl⟩

/-- The composed term the reference's run ends at, for any arguments, is the network of them. -/
theorem term_eq (hr1 : S16.ShapeCasts S1x16) (hr2 : S32.ShapeCasts S1x32)
    (x : FVec Ideal S100000x128 .f32) (src dst : IVec S1600000 32)
    (w1 : FVec Ideal S128x16 .f32) (b1 : FVec Ideal S16 .f32) (w2 : FVec Ideal S16x32 .f32) (b2 : FVec Ideal S32 .f32) :
    addf (Host.dotGeneral dot_S100000x16_S16x32_S100000x32_1_0_0_1_n_n none (Host.scatterAdd scatter_S100000x16_S1600000x1_S1600000x16_1_0_0_1 (broadcastInDim S100000x16 ![] bcast_S_S100000x16 (constant S_ .f32 0x00000000#32)) (broadcastInDim S1600000x1 ![0] bcast_S1600000_S1600000x1_0 dst) (Host.gather gather_S100000x16_S1600000x1_S1600000x16_1_0_n_n_0_1_116 (maximumf (addf (Host.dotGeneral dot_S100000x128_S128x16_S100000x16_1_0_0_1_n_n none (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) w1) (broadcastInDim S100000x16 ![0, 1] bcast_S1x16_S100000x16_0_1 (broadcastInDim S1x16 ![1] bcast_S16_S1x16_1 b1))) (broadcastInDim S100000x16 ![] bcast_S_S100000x16 (constant S_ .f32 0x00000000#32))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) w2) (broadcastInDim S100000x32 ![0, 1] bcast_S1x32_S100000x32_0_1 (broadcastInDim S1x32 ![1] bcast_S32_S1x32_1 b2))
      = network gather_S100000x128_S1600000x1_S1600000x128_1_0_n_n_0_1_1128 scatter_S100000x128_S1600000x1_S1600000x128_1_0_0_1
          gather_S100000x16_S1600000x1_S1600000x16_1_0_n_n_0_1_116 scatter_S100000x16_S1600000x1_S1600000x16_1_0_0_1
          bcast_S_S100000x128 bcast_S_S100000x16 bcast_S1600000_S1600000x1_0 bcast_S_S1600000 hr1 hr2
          x src dst w1 b1 w2 b2 := by
  rw [host_affine plain2 _ w2 b2 bcast_S32_S1x32_1 bcast_S1x32_S100000x32_0_1 hr2,
    host_clipped plain1 _ w1 b1 bcast_S16_S1x16_1 bcast_S1x16_S100000x16_0_1 bcast_S_S100000x16 hr1]
  rfl

end Cert.ReferenceIdeal.Hand

end
-- ==== Proof.lean ====
/-
  A two-layer graph network in two programs, equal on the extended reals.

  Both programs aggregate neighbour rows (gather at the edges' sources, add at the edges' targets), apply a first
  layer agg · W1 + b1 clipped at zero, aggregate again, and apply a second layer agg · W2 + b2.  The kernel computes
  each layer in a pipelined region, block by block of 5000 node rows, by a matrix product into a zero accumulator of
  operands whose change of float format is the identity on the extended reals; the reference computes each layer
  over whole arrays by a `dot_general`.  An entry of a layer is the sum over k of agg(r, k) · W(k, c) plus b(c): it
  depends on row r of the aggregated array only, so a block of the layer is the layer of the block, the blocks tile
  the array, and both programs end at one function of the arguments, the network.  No law beyond reading the two
  spellings index by index is used, so the precondition is never opened.
  The three frames: the kernel's two are its regions' launch, block and write-back discipline with the host stretches
  between them; the reference's is its run with the result dropped.  The idealization rewrote nothing.
-/
import proofs.«132665_j317827580689_2_alg».proof.Defs
import proofs.«132665_j317827580689_2_alg».proof.Proof.Gen.Kernel
import proofs.«132665_j317827580689_2_alg».proof.Proof.Gen.Kernel.Frame
import proofs.«132665_j317827580689_2_alg».proof.Proof.Gen.KernelIdeal
import proofs.«132665_j317827580689_2_alg».proof.Proof.Gen.KernelIdeal.Frame
import proofs.«132665_j317827580689_2_alg».proof.Proof.Gen.ReferenceIdeal
import proofs.«132665_j317827580689_2_alg».proof.Proof.Gen.Pre_finite_inputs
import proofs.«132665_j317827580689_2_alg».proof.Proof.Gen.ReferenceIdeal.Run
import proofs.«132665_j317827580689_2_alg».proof.Proof.Line
import proofs.«132665_j317827580689_2_alg».proof.Proof.RefTerm

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run ends with every argument as launched. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the network of their arguments, and the arguments agree. -/
theorem algebraic : Cert.algebraic_KernelIdeal_ReferenceIdeal := by
  intro m ρ m' ρ' _ hagree
  refine ⟨fun c => Cert.KernelIdeal.Line.value m c, Cert.KernelIdeal.Line.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact (Cert.ReferenceIdeal.Hand.term_eq Cert.KernelIdeal.Facts₀.shapeCasts_S16_S1x16 Cert.KernelIdeal.Facts₀.shapeCasts_S32_S1x32
    _ _ _ _ _ _ _).trans rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
